-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x2048 : Shape := ⟨3, ![8, 512, 2048]⟩
abbrev S8x2048x2048 : Shape := ⟨3, ![8, 2048, 2048]⟩
abbrev S_ : Shape := ⟨0, ![]⟩

class Facts : Prop where
  bcast_S_S8x512x2048 : S_.BroadcastsInDim S8x512x2048 (![] : Fin 0 → Fin S8x512x2048.rank)
  reducesTo_S8x512x2048_S_d0_1_2 : S8x512x2048.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_

variable [Facts]

def fn {F : FTy → Type} [FloatOps F] (main_arg0 : FVec F S8x512x2048 .f32) (main_arg1 : FVec F S8x2048x2048 .f32) : IVec S_ 1 :=
  let main_v0 : FVec F S8x512x2048 .f32 := Host.absf main_arg0
  let main_cst : FVec F S_ .f32 := constant S_ .f32 0x7F800000#32
  let main_v1 : FVec F S8x512x2048 .f32 := broadcastInDim S8x512x2048 ![] bcast_S_S8x512x2048 main_cst
  let main_v2 : IVec S8x512x2048 1 := cmpf .olt main_v0 main_v1
  let main_c : IVec S_ 1 := constantI S_ 1 1#1
  let main_v3 : IVec S_ 1 := (fun x v => Host.reduce IntOp.andi x v reducesTo_S8x512x2048_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  main_v8
-- ==== Kernel.lean ====
abbrev S8x512x2048 : Shape := ⟨3, ![8, 512, 2048]⟩
abbrev S8x2048x2048 : Shape := ⟨3, ![8, 2048, 2048]⟩
abbrev S1x512x2048 : Shape := ⟨3, ![1, 512, 2048]⟩
abbrev S1x2048x2048 : Shape := ⟨3, ![1, 2048, 2048]⟩
abbrev S512x2048 : Shape := ⟨2, ![512, 2048]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8x512x2048, .f32⟩
  | .hbm, ⟨1, _⟩ => ⟨S8x2048x2048, .f32⟩
  | .hbm, ⟨2, _⟩ => ⟨S8x512x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048x2048, .f32⟩
  | .local _ .vmem, ⟨3, _⟩ => ⟨S1x2048x2048, .f32⟩
  | .local _ .vmem, ⟨4, _⟩ => ⟨S1x512x2048, .f32⟩
  | .local _ .vmem, ⟨5, _⟩ => ⟨S1x512x2048, .f32⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  shapeCasts_S512x2048_S1x512x2048 : S512x2048.ShapeCasts S1x512x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x512x2048.size a
  hwx0_0 : ∀ i : grid0.Coords, EltTy.bits .f32 = 32 ∨ (Rect.block (s := S8x512x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x2048.size a ≤ S8x2048x2048.size a
  hwx0_1 : ∀ i : grid0.Coords, EltTy.bits .f32 = 32 ∨ (Rect.block (s := S8x2048x2048) S1x2048x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S8x512x2048.size a
  hwx0_2 : ∀ i : grid0.Coords, EltTy.bits .f32 = 32 ∨ (Rect.block (s := S8x512x2048) S1x512x2048.size (cc0_transform_2 i) (hinb0_2 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x512x2048 : Shape := ⟨3, ![8, 512, 2048]⟩
abbrev S8x2048x2048 : Shape := ⟨3, ![8, 2048, 2048]⟩
abbrev S1x256x512 : Shape := ⟨3, ![1, 256, 512]⟩
abbrev S1x512x512 : Shape := ⟨3, ![1, 512, 512]⟩
abbrev S256x512 : Shape := ⟨2, ![256, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8x512x2048, .f32⟩
  | .hbm, ⟨1, _⟩ => ⟨S8x2048x2048, .f32⟩
  | .hbm, ⟨2, _⟩ => ⟨S8x512x2048, .f32⟩
  | .local _ .vmem, ⟨0, _⟩ => ⟨S1x256x512, .f32⟩
  | .local _ .vmem, ⟨1, _⟩ => ⟨S1x256x512, .f32⟩
  | .local _ .vmem, ⟨2, _⟩ => ⟨S1x512x512, .f32⟩
  | .local _ .vmem, ⟨3, _⟩ => ⟨S1x512x512, .f32⟩
  | .local _ .vmem, ⟨4, _⟩ => ⟨S1x256x512, .f32⟩
  | .local _ .vmem, ⟨5, _⟩ => ⟨S1x256x512, .f32⟩
  | .local _ .vmem, ⟨6, _⟩ => ⟨S256x512, .f32⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 2, 4, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

class Facts₀ : Prop where
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S256x512_S1x256x512 : S256x512.ShapeCasts S1x256x512
  dot_S256x512_S512x512_S256x512_1_0_0_1_n_n_wf : DotDims.WF S256x512 S512x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S8x512x2048.size a
  hwx0_0 : ∀ i : grid0.Coords, EltTy.bits .f32 = 32 ∨ (Rect.block (s := S8x512x2048) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S8x2048x2048.size a
  hwx0_1 : ∀ i : grid0.Coords, EltTy.bits .f32 = 32 ∨ (Rect.block (s := S8x2048x2048) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x512.size a ≤ S8x512x2048.size a
  hwx0_2 : ∀ i : grid0.Coords, EltTy.bits .f32 = 32 ∨ (Rect.block (s := S8x512x2048) S1x256x512.size (cc0_transform_2 i) (hinb0_2 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_arg0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== Proof.Spec.lean ====
/-
  The common value of both programs: for every expert `e`, token row `t` and output column `i`,

      out[e, t, i] = ∑ h < 2048, x[e, t, h] · w[e, h, i]

  over the extended reals, and the one law that joins the two tilings of that sum: a sum over 2048
  positions is the sum of its four consecutive blocks of 512, added one after the other to zero. The
  extended reals are a commutative additive monoid, so regrouping a finite sum needs no finiteness.
-/
import Idealize.ShloMosaic.PureOps.Ideal
import Idealize.ShloMosaic.Lib.ValueIdx
import Mathlib.Algebra.BigOperators.Fin

noncomputable section

namespace Cert.ExpertProduct

open Idealize.ShloMosaic Idealize.ShloMosaic.ValueIdx

/-- The activations' and the result's index set, [8, 512, 2048]; the weights', [8, 2048, 2048]. -/
abbrev XIdx : Type := (⟨3, ![8, 512, 2048]⟩ : Shape).Idx
abbrev WIdx : Type := (⟨3, ![8, 2048, 2048]⟩ : Shape).Idx

/-- One entry of expert `e`'s product: row `t` of `x[e]` against column `i` of `w[e]`. -/
def entry (x : XIdx → EReal) (w : WIdx → EReal) (e : Fin 8) (t : Fin 512) (i : Fin 2048) : EReal :=
  ∑ h : Fin 2048, x (ix3 e t h) * w (ix3 e h i)

/-- The whole result array: every expert's matrix product. -/
def product (x : XIdx → EReal) (w : WIdx → EReal) : XIdx → EReal :=
  fun j => entry x w (j 0) (j 1) (j 2)

theorem product_apply (x : XIdx → EReal) (w : WIdx → EReal) (e : Fin 8) (t : Fin 512) (i : Fin 2048) :
    product x w (ix3 e t i) = entry x w e t i := rfl

/-- A sum over 2048 positions, block by block: zero, plus the first 512 terms, plus the next 512, and so
    on — the order in which an accumulator that starts at zero meets four contraction tiles. -/
theorem sum_four_blocks {M : Type*} [AddCommMonoid M] (f : Fin 2048 → M) :
    ∑ h : Fin 2048, f h =
      (((0 + ∑ j : Fin 512, f ⟨j.val, by have := j.isLt; omega⟩)
          + ∑ j : Fin 512, f ⟨512 + j.val, by have := j.isLt; omega⟩)
          + ∑ j : Fin 512, f ⟨1024 + j.val, by have := j.isLt; omega⟩)
          + ∑ j : Fin 512, f ⟨1536 + j.val, by have := j.isLt; omega⟩ := by
  have split : ∀ g : Fin (512 + 512 + 512 + 512) → M, ∑ h, g h =
      (((0 + ∑ j : Fin 512, g (Fin.castAdd 512 (Fin.castAdd 512 (Fin.castAdd 512 j))))
          + ∑ j : Fin 512, g (Fin.castAdd 512 (Fin.castAdd 512 (Fin.natAdd 512 j))))
          + ∑ j : Fin 512, g (Fin.castAdd 512 (Fin.natAdd (512 + 512) j)))
          + ∑ j : Fin 512, g (Fin.natAdd (512 + 512 + 512) j) := by
    intro g
    rw [Fin.sum_univ_add, Fin.sum_univ_add, Fin.sum_univ_add, zero_add]
  exact split f

end Cert.ExpertProduct

end
-- ==== Proof.KernelPayload.lean ====
/-
  The single-step program's arithmetic at one index, over the extended reals. Its body multiplies the
  whole [512, 2048] block of `x[e]` by the whole [2048, 2048] block of `w[e]` into a zero accumulator:
  entry (t, i) of the product is the sum over all 2048 contraction positions, which is one entry of
  the specified result as soon as the two loaded blocks are the expert's slices of the arguments.
-/
import proofs.«117274_g2000205832369335_pallasbulk_950_5_alg».proof.Proof.Gen.KernelIdeal.Skeleton
import proofs.«117274_g2000205832369335_pallasbulk_950_5_alg».proof.Proof.Spec
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.KernelIdeal.Whole

open Cert.KernelIdeal Cert.KernelIdeal.Gen Cert.ExpertProduct

/-- Row `t`, contraction position `h`: where the product's left operand is read. -/
theorem lhs_at (t : Fin 512) (i h : Fin 2048) :
    DotDims.lhsIdx dot_S512x2048_S2048x2048_S512x2048_1_0_0_1_n_n (ix2 t i)
      ((contrEquiv1 dot_S512x2048_S2048x2048_S512x2048_1_0_0_1_n_n 2048 rfl rfl).symm h) = ix2 t h := by
  funext a
  apply Fin.ext
  match a with
  | ⟨0, _⟩ => rfl
  | ⟨1, _⟩ =>
    exact (DotDims.lhsIdx_val_of_single (d := dot_S512x2048_S2048x2048_S512x2048_1_0_0_1_n_n) (cl := (1 : Fin 2)) rfl (ix2 t i) _).trans
      (contrEquiv1_symm_val dot_S512x2048_S2048x2048_S512x2048_1_0_0_1_n_n 2048 rfl rfl h)

/-- Contraction position `h`, column `i`: where the right operand is read. -/
theorem rhs_at (t : Fin 512) (i h : Fin 2048) :
    DotDims.rhsIdx dot_S512x2048_S2048x2048_S512x2048_1_0_0_1_n_n (ix2 t i)
      ((contrEquiv1 dot_S512x2048_S2048x2048_S512x2048_1_0_0_1_n_n 2048 rfl rfl).symm h) = ix2 h i := by
  funext a
  apply Fin.ext
  match a with
  | ⟨0, _⟩ =>
    exact (DotDims.rhsIdx_val_of_single (d := dot_S512x2048_S2048x2048_S512x2048_1_0_0_1_n_n) (cr := (0 : Fin 2)) rfl (ix2 t i) _).trans
      (contrEquiv1_symm_val dot_S512x2048_S2048x2048_S512x2048_1_0_0_1_n_n 2048 rfl rfl h)
  | ⟨1, _⟩ => rfl

/-- The product into a zero accumulator, at entry (t, i): the plain sum over the contraction axis. -/
theorem matmul_at (lhs : FVec Ideal S512x2048 .f32) (rhs : FVec Ideal S2048x2048 .f32) (t : Fin 512) (i : Fin 2048) :
    matmul dot_S512x2048_S2048x2048_S512x2048_1_0_0_1_n_n none lhs rhs (constant (F := Ideal) S512x2048 .f32 0x00000000#32) (ix2 t i)
      = ∑ h : Fin 2048, lhs (ix2 t h) * rhs (ix2 h i) := by
  simp only [matmul]
  rw [Ideal.matmul_constant_zero_apply]
  rw [← Equiv.sum_comp (contrEquiv1 dot_S512x2048_S2048x2048_S512x2048_1_0_0_1_n_n 2048 rfl rfl).symm]
  refine Finset.sum_congr rfl fun h _ => ?_
  rw [lhs_at, rhs_at]

/-- Dropping the leading unit axis of an index (0, a, b) leaves (a, b). -/
theorem tail_ix3 {n1 n2 : Nat} (a : Fin n1) (b : Fin n2) :
    (fun d : Fin 2 => (ix3 (0 : Fin 1) a b) d.succ) = ix2 a b :=
  funext fun d => by match d with | ⟨0, _⟩ => rfl | ⟨1, _⟩ => rfl

/-- Putting a leading zero in front of (a, b) gives (0, a, b). -/
theorem cons_ix2 {n1 n2 : Nat} (a : Fin n1) (b : Fin n2) :
    (Fin.cons (⟨0, Nat.one_pos⟩ : Fin 1) (ix2 a b) : (⟨3, ![1, n1, n2]⟩ : Shape).Idx) = ix3 (0 : Fin 1) a b :=
  funext fun d => by match d with | ⟨0, _⟩ => rfl | ⟨1, _⟩ => rfl | ⟨2, _⟩ => rfl

/-- The body's stored value at (0, t, i): the full contraction of row `t` of the first block with column
    `i` of the second. -/
theorem payload_at (x0 : Vec Ideal S1x512x2048 .f32) (x1 : Vec Ideal S1x2048x2048 .f32) (t : Fin 512) (i : Fin 2048) :
    k0_pay1 x0 x1 (ix3 (0 : Fin 1) t i) = ∑ h : Fin 2048, x0 (ix3 (0 : Fin 1) t h) * x1 (ix3 (0 : Fin 1) h i) := by
  unfold k0_pay1
  refine (shapeCast_addUnit_apply ![512, 2048] _ _ (ix3 (0 : Fin 1) t i)).trans ?_
  refine (congrArg _ (tail_ix3 t i)).trans ?_
  refine (matmul_at _ _ t i).trans ?_
  refine Finset.sum_congr rfl fun h _ => ?_
  refine congrArg₂ (· * ·) ?_ ?_
  · exact (shapeCast_dropUnit_apply ![512, 2048] x0 _ (ix2 t h)).trans (congrArg x0 (cons_ix2 t h))
  · exact (shapeCast_dropUnit_apply ![2048, 2048] x1 _ (ix2 h i)).trans (congrArg x1 (cons_ix2 h i))

/-- With the two blocks being expert `e`'s slices of the arguments, the stored block is expert `e`'s
    slice of the specified result. -/
theorem payload_is_product (x0 : Vec Ideal S1x512x2048 .f32) (x1 : Vec Ideal S1x2048x2048 .f32)
    (X : XIdx → EReal) (W : WIdx → EReal) (e : Fin 8)
    (hx : ∀ (t : Fin 512) (h : Fin 2048), x0 (ix3 (0 : Fin 1) t h) = X (ix3 e t h))
    (hw : ∀ (h i : Fin 2048), x1 (ix3 (0 : Fin 1) h i) = W (ix3 e h i))
    (t : Fin 512) (i : Fin 2048) :
    k0_pay1 x0 x1 (ix3 (0 : Fin 1) t i) = product X W (ix3 e t i) := by
  rw [payload_at, product_apply]
  exact Finset.sum_congr rfl fun h _ => by rw [hx, hw]

end Cert.KernelIdeal.Whole

end
-- ==== Proof.KernelValue.lean ====
/-
  The single-step program's result array. Its grid has one point per expert: point `e` stages the whole
  of `x[e]` and `w[e]`, and writes back the whole [512, 2048] block `e` of the result. Each written block
  is expert `e`'s slice of the specified product, the eight blocks tile the array, so the array ends
  holding the specified product of the argument arrays.
-/
import proofs.«117274_g2000205832369335_pallasbulk_950_5_alg».proof.Proof.Gen.KernelIdeal.Value
import proofs.«117274_g2000205832369335_pallasbulk_950_5_alg».proof.Proof.KernelPayload

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.ExpertProduct

variable (m : (ℓ : Loc nD τ sig) → Buf (Elt Ideal) ℓ) (ρ : Dev nD → PrngReg)

theorem zeros3 : (![0, 0, 0] : Fin 3 → Nat) = fun _ => 0 := funext fun a => by fin_cases a <;> rfl

/-- The expert a grid point works on: the point's own number. -/
abbrev expert (t : Fin cfg0.N) : Fin 8 := ⟨t.val, lt_of_lt_of_eq t.isLt (show cfg0.N = 8 from N_0)⟩

/-- All three windows sit at block (e, 0, 0) at point `e`. -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The first input's block at point `t` is expert `t`'s slice of `x`. -/
theorem x_block (c : Dev nD) (t : Fin cfg0.N) (r : Fin 512) (h : Fin 2048) :
    (iblk m c 0 t : Vec Ideal S1x512x2048 .f32) (ix3 (0 : Fin 1) r h) = V m c main_arg0 (ix3 (expert t) r h) := by
  obtain ⟨e0, e1, e2, -⟩ := block_index t
  show V m c main_arg0 (((cfg0.win 0).blk t).view.emb (ix3 (0 : Fin 1) r h)) = _
  refine congrArg (V m c main_arg0) ?_
  funext a
  apply Fin.ext
  match a with
  | ⟨0, _⟩ => show win0_0.index t (0 : Fin 3) * 1 + 1 * 0 = t.val; rw [e0]; omega
  | ⟨1, _⟩ => show win0_0.index t (1 : Fin 3) * 512 + 1 * r.val = r.val; rw [e1]; omega
  | ⟨2, _⟩ => show win0_0.index t (2 : Fin 3) * 2048 + 1 * h.val = h.val; rw [e2]; omega

/-- The second input's block at point `t` is expert `t`'s slice of `w`. -/
theorem w_block (c : Dev nD) (t : Fin cfg0.N) (h i : Fin 2048) :
    (iblk m c 1 t : Vec Ideal S1x2048x2048 .f32) (ix3 (0 : Fin 1) h i) = V m c main_arg1 (ix3 (expert t) h i) := by
  obtain ⟨-, -, -, e0, e1, e2, -⟩ := block_index t
  show V m c main_arg1 (((cfg0.win 1).blk t).view.emb (ix3 (0 : Fin 1) h i)) = _
  refine congrArg (V m c main_arg1) ?_
  funext a
  apply Fin.ext
  match a with
  | ⟨0, _⟩ => show win0_1.index t (0 : Fin 3) * 1 + 1 * 0 = t.val; rw [e0]; omega
  | ⟨1, _⟩ => show win0_1.index t (1 : Fin 3) * 2048 + 1 * h.val = h.val; rw [e1]; omega
  | ⟨2, _⟩ => show win0_1.index t (2 : Fin 3) * 2048 + 1 * i.val = i.val; rw [e2]; omega

/-- The stored block at any of its indices, once the loaded blocks are an expert's slices. -/
theorem block_is_product (x0 : Vec Ideal S1x512x2048 .f32) (x1 : Vec Ideal S1x2048x2048 .f32)
    (X : XIdx → EReal) (W : WIdx → EReal) (e : Fin 8)
    (hx : ∀ (t : Fin 512) (h : Fin 2048), x0 (ix3 (0 : Fin 1) t h) = X (ix3 e t h))
    (hw : ∀ (h i : Fin 2048), x1 (ix3 (0 : Fin 1) h i) = W (ix3 e h i))
    (j : S1x512x2048.Idx) :
    k0_pay1 x0 x1 j = product X W (ix3 e (j 1) (j 2)) := by
  obtain ⟨a, t, i, rfl⟩ : ∃ (a : Fin 1) (t : Fin 512) (i : Fin 2048), j = ix3 a t i := ⟨j 0, j 1, j 2, eq_ix3 j⟩
  obtain rfl : a = 0 := Subsingleton.elim _ _
  exact payload_is_product x0 x1 X W e hx hw t i

/-- What point `t` writes back is block `t` of the specified product of the arrays as the region finds them. -/
theorem flushed_eq (c : Dev nD) (t : Fin cfg0.N) :
    (dats m 0 c).flushed 2 t
      = ((cfg0.win 2).blk t).view.read (Elt Ideal) (product (V m c main_arg0) (V m c main_arg1)) := by
  rw [Value.flushed2]
  unfold out0_2
  rw [View.canon_unit_zero zeros3]
  simp only [View.ld_unit_zero (S := S1x512x2048) zeros3, View.ld_unit_zero (S := S1x2048x2048) zeros3]
  obtain ⟨-, -, -, -, -, -, e0, e1, e2⟩ := block_index t
  funext j
  show k0_pay1 (iblk m c 0 t) (iblk m c 1 t) j
    = product (V m c main_arg0) (V m c main_arg1) (((cfg0.win 2).blk t).view.emb j)
  refine (block_is_product _ _ (V m c main_arg0) (V m c main_arg1) (expert t) (x_block m c t) (w_block m c t) j).trans ?_
  refine congrArg (product (V m c main_arg0) (V m c main_arg1)) ?_
  funext a
  apply Fin.ext
  have hj0 : (j 0).val < 1 := (j 0).isLt
  match a with
  | ⟨0, _⟩ => show t.val = win0_2.index t (0 : Fin 3) * 1 + 1 * (j 0).val; rw [e0]; omega
  | ⟨1, _⟩ => show (j 1).val = win0_2.index t (1 : Fin 3) * 512 + 1 * (j 1).val; rw [e1]; omega
  | ⟨2, _⟩ => show (j 2).val = win0_2.index t (2 : Fin 3) * 2048 + 1 * (j 2).val; rw [e2]; omega

/-- An index of the result is in point `t`'s block iff each coordinate is in the block's range on its axis. -/
theorem mem_block (t : Fin cfg0.N) (i : S8x512x2048.Idx) :
    i ∈ ((cfg0.win 2).blk t).view.set ↔ ∀ a : Fin 3, win0_2.index t a * S1x512x2048.size a ≤ (i a).val
      ∧ (i a).val < win0_2.index t a * S1x512x2048.size a + S1x512x2048.size a := by
  show i ∈ ((View.whole main_v0).slice (win0_2.rect t)).set ↔ _
  rw [View.set_slice_whole, Rect.mem_set_unit]
  exact Iff.rfl

/-- Every index of the result lies in the block of the point numbered by its expert coordinate. -/
theorem covered (i : S8x512x2048.Idx) :
    ∃ t : Fin cfg0.N, (cfg0.win 2).flush t = true ∧ i ∈ ((cfg0.win 2).blk t).view.set := by
  have hN : cfg0.N = 8 := N_0
  have h0 : (i 0).val < 8 := (i 0).isLt
  have h1 : (i 1).val < 512 := (i 1).isLt
  have h2 : (i 2).val < 2048 := (i 2).isLt
  refine ⟨⟨(i 0).val, by omega⟩, flush0_2 _, ?_⟩
  obtain ⟨-, -, -, -, -, -, e0, e1, e2⟩ := block_index ⟨(i 0).val, by omega⟩
  rw [mem_block]
  intro a
  match a with
  | ⟨0, _⟩ =>
    show win0_2.index _ (0 : Fin 3) * 1 ≤ (i 0).val ∧ (i 0).val < win0_2.index _ (0 : Fin 3) * 1 + 1
    rw [e0]; dsimp only; omega
  | ⟨1, _⟩ =>
    show win0_2.index _ (1 : Fin 3) * 512 ≤ (i 1).val ∧ (i 1).val < win0_2.index _ (1 : Fin 3) * 512 + 512
    rw [e1]; omega
  | ⟨2, _⟩ =>
    show win0_2.index _ (2 : Fin 3) * 2048 ≤ (i 2).val ∧ (i 2).val < win0_2.index _ (2 : Fin 3) * 2048 + 2048
    rw [e2]; omega

/-- The result array after the run: the specified product of the two argument arrays. -/
theorem final (c : Dev nD) :
    (dats m 0 c).arrAt 2 cfg0.N
      = product (m ((c : Thread nD τ).loc main_arg0)) (m ((c : Thread nD τ).loc main_arg1)) :=
  (dats m 0 c).arrAt_eq_of_cover 2 (product (V m c main_arg0) (V m c main_arg1)) (fun t _ => flushed_eq m c t) covered

/-- Every weakly fair execution ends with the result array at the specified product, the arguments unchanged. -/
theorem run : θ_run defs (onTc (τ := τ) (main (F := Ideal))) ⟨m, fun _ => 0, ρ⟩ fun r => ∀ c : Dev nD,
      r.2.mem ((c : Thread nD τ).loc main_v0)
        = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefPieces.lean ====
/-
  What one grid step of the tiled program leaves behind, at any float instance. The body keeps a
  [256, 512] accumulator between steps. A step that opens a run of four contraction tiles stores zero
  into the accumulator and then adds its tile's product; every later step adds its tile's product to
  what the step before left; the step that closes the run also copies the accumulator into the output
  block. Each lemma reads the stores a step performs back as one value of the step's loaded blocks.
-/
import proofs.«117274_g2000205832369335_pallasbulk_950_5_alg».proof.Proof.Gen.ReferenceIdeal.Frame
import Idealize.ShloMosaic.Lib.Pipeline.Value
import Idealize.ShloMosaic.Lib.Tactic

noncomputable section

open Idealize.ShloMosaic Idealize.ShloMosaic.TcCoe Idealize.SL.Sem

namespace Cert.ReferenceIdeal.Steps

open Cert.ReferenceIdeal Cert.ReferenceIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- A step in the middle of a run: the accumulator ends at what it held plus the product of the step's
    two blocks. -/
theorem acc_middle (c : Dev nD) (i : grid0.Coords) (a4 : Memref sig .tc .vmem S1x256x512 .f32) (h4 : a4.IsWhole)
    (a5 : Memref sig .tc .vmem S1x512x512 .f32) (h5 : a5.IsWhole) (a6 : Memref sig .tc .vmem S1x256x512 .f32) (h6 : a6.IsWhole)
    (a7 : Memref sig .tc .vmem S256x512 .f32) (h7 : a7.IsWhole) (hc0 : ¬cond0_0 i) (hc1 : ¬cond0_1 i)
    (x0 : Vec F S1x256x512 .f32) (x1 : Vec F S1x512x512 .f32) (xs0 : Vec F S256x512 .f32) :
    sout0_B_0 c i a4 h4 a5 h5 a6 h6 a7 h7 hc0 hc1 x0 x1 xs0 = k0_pay2 xs0 x0 x1 := by
  unfold sout0_B_0
  rw [View.read_writes_eq_canon _ _ _ (scover0_B_0 c i a4 h4 a5 h5 a6 h6 a7 h7 hc0 hc1 x0 x1 xs0)]
  unfold kernelRun0_B
  dsimp only
  rw [View.canon_unit_zero zeros2]
  simp only [View.readAt_eq_ld, h7.read_unread, h4.read_unread, h5.read_unread,
    View.ld_unit_zero (S := S256x512) zeros2, View.ld_unit_zero (S := S1x256x512) zeros3,
    View.ld_unit_zero (S := S1x512x512) zeros3]

/-- The step that opens a run: the accumulator is first set to zero, read back, and ends at zero plus the
    product of the step's two blocks, whatever it held before. -/
theorem acc_first (c : Dev nD) (i : grid0.Coords) (a4 : Memref sig .tc .vmem S1x256x512 .f32) (h4 : a4.IsWhole)
    (a5 : Memref sig .tc .vmem S1x512x512 .f32) (h5 : a5.IsWhole) (a6 : Memref sig .tc .vmem S1x256x512 .f32) (h6 : a6.IsWhole)
    (a7 : Memref sig .tc .vmem S256x512 .f32) (h7 : a7.IsWhole) (hc0 : cond0_0 i) (hc1 : ¬cond0_1 i)
    (x0 : Vec F S1x256x512 .f32) (x1 : Vec F S1x512x512 .f32) :
    sout0_A_0 c i a4 h4 a5 h5 a6 h6 a7 h7 hc0 hc1 x0 x1 = k0_pay2 (k0_pay1 (F := F)) x0 x1 := by
  unfold sout0_A_0
  rw [View.read_writes_eq_canon _ _ _ (scover0_A_0 c i a4 h4 a5 h5 a6 h6 a7 h7 hc0 hc1 x0 x1)]
  unfold kernelRun0_A
  dsimp only
  sl_unfold_words
  rw [View.canon_cons_unit_zero (S := S256x512) zeros2, View.readCov_unit_zero (S := S256x512) _ zeros2]
  simp only [View.readAt_eq_ld, h4.read_unread, h5.read_unread,
    View.ld_unit_zero (S := S1x256x512) zeros3, View.ld_unit_zero (S := S1x512x512) zeros3]

/-- The step that closes a run: the output block ends at the accumulator's final value — what the step
    before left plus this step's product — under the leading unit axis of the block. -/
theorem out_last (c : Dev nD) (i : grid0.Coords) (a4 : Memref sig .tc .vmem S1x256x512 .f32) (h4 : a4.IsWhole)
    (a5 : Memref sig .tc .vmem S1x512x512 .f32) (h5 : a5.IsWhole) (a6 : Memref sig .tc .vmem S1x256x512 .f32) (h6 : a6.IsWhole)
    (a7 : Memref sig .tc .vmem S256x512 .f32) (h7 : a7.IsWhole) (hc0 : ¬cond0_0 i) (hc1 : cond0_1 i)
    (x0 : Vec F S1x256x512 .f32) (x1 : Vec F S1x512x512 .f32) (xs0 : Vec F S256x512 .f32) :
    out0_C_2 c i a4 h4 a5 h5 a6 h6 a7 h7 hc0 hc1 x0 x1 xs0 = k0_pay3 (k0_pay2 xs0 x0 x1) := by
  unfold out0_C_2
  rw [View.read_writes_eq_canon _ _ _ (cover0_C_2 c i a4 h4 a5 h5 a6 h6 a7 h7 hc0 hc1 x0 x1 xs0)]
  unfold kernelRun0_C
  dsimp only
  sl_unfold_words
  rw [View.canon_unit_zero zeros3, View.readCov_unit_zero (S := S256x512) _ zeros2]
  simp only [View.readAt_eq_ld, h7.read_unread, h4.read_unread, h5.read_unread,
    View.ld_unit_zero (S := S256x512) zeros2, View.ld_unit_zero (S := S1x256x512) zeros3,
    View.ld_unit_zero (S := S1x512x512) zeros3]

end Cert.ReferenceIdeal.Steps

end
-- ==== Proof.RefChain.lean ====
/-
  A run of four consecutive grid points of the tiled program. The grid's last axis, the contraction
  tile, moves fastest, so a point `t` whose number is 3 modulo 4 closes a run t - 3, t - 2, t - 1, t that
  visits one output block: the first point resets the accumulator, the next two add to it, and the last
  adds and copies the accumulator into the output block. What that block then holds is four
  accumulation steps from zero over the four points' input blocks.
-/
import proofs.«117274_g2000205832369335_pallasbulk_950_5_alg».proof.Proof.RefPieces

noncomputable section

open Idealize.ShloMosaic Idealize.ShloMosaic.TcCoe Idealize.SL.Sem

namespace Cert.ReferenceIdeal.Steps

open Cert.ReferenceIdeal Cert.ReferenceIdeal.Gen

variable {F : FTy → Type} [FloatOps F]
variable (m : (ℓ : Loc nD τ sig) → Buf (Elt F) ℓ)

/-- The grid point before `t` (point 0 stays where it is). -/
abbrev before (t : Fin cfg0.N) : Fin cfg0.N := ⟨t.val - 1, Nat.lt_of_le_of_lt (Nat.sub_le _ _) t.isLt⟩

/-- After the point that opens a run the accumulator holds zero plus that point's product. -/
theorem acc_after_first (c : Dev nD) (t : Fin cfg0.N) (h0 : t.val % 4 = 0) (h1 : ¬t.val % 4 = 3) :
    (outsAt0 m c t.val t.isLt).2 = k0_pay2 (k0_pay1 (F := F)) (iblk m c 0 t) (iblk m c 1 t) := by
  rw [outsAt0_A m c t h0 h1]
  dsimp only
  exact acc_first c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- After a point in the middle of a run it holds what the point before left plus this point's product. -/
theorem acc_after_middle (c : Dev nD) (t : Fin cfg0.N) (h0 : ¬t.val % 4 = 0) (h1 : ¬t.val % 4 = 3) :
    (outsAt0 m c t.val t.isLt).2
      = k0_pay2 (outsAt0 m c (before t).val (before t).isLt).2 (iblk m c 0 t) (iblk m c 1 t) := by
  rw [outsAt0_B m c t h0 h1]
  dsimp only
  exact acc_middle c (grid0.coords t) (ms0_0 t) (hs0_0 t) (ms0_1 t) (hs0_1 t) (ms0_2 t) (hs0_2 t) scM0_0
    (Memref.isWhole_whole _) (fun h => h0 ((hcond0_0 t).mp h)) (fun h => h1 ((hcond0_1 t).mp h))
    (iblk m c 0 t) (iblk m c 1 t) (outsAt0 m c (before t).val (before t).isLt).2

/-- After the point that closes a run the output block holds the accumulator's final value. -/
theorem out_after_last (c : Dev nD) (t : Fin cfg0.N) (h0 : ¬t.val % 4 = 0) (h1 : t.val % 4 = 3) :
    (outsAt0 m c t.val t.isLt).1
      = k0_pay3 (k0_pay2 (outsAt0 m c (before t).val (before t).isLt).2 (iblk m c 0 t) (iblk m c 1 t)) := by
  rw [outsAt0_C m c t h0 h1]
  dsimp only
  exact out_last c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1)
    (iblk m c 0 t) (iblk m c 1 t) (outsAt0 m c (before t).val (before t).isLt).2

/-- The output block after the point `t` that closes a run: four steps from zero over the input blocks of
    the run's four points, first to last. -/
theorem out_after_run (c : Dev nD) (t : Fin cfg0.N) (h3 : t.val % 4 = 3) :
    (outsAt0 m c t.val t.isLt).1
      = k0_pay3 (k0_pay2 (k0_pay2 (k0_pay2 (k0_pay2 (k0_pay1 (F := F))
          (iblk m c 0 (before (before (before t)))) (iblk m c 1 (before (before (before t)))))
          (iblk m c 0 (before (before t))) (iblk m c 1 (before (before t))))
          (iblk m c 0 (before t)) (iblk m c 1 (before t)))
          (iblk m c 0 t) (iblk m c 1 t)) := by
  have b1 : (before t).val = t.val - 1 := rfl
  have b2 : (before (before t)).val = t.val - 1 - 1 := rfl
  have b3 : (before (before (before t))).val = t.val - 1 - 1 - 1 := rfl
  rw [out_after_last m c t (by omega) h3,
    acc_after_middle m c (before t) (by omega) (by omega),
    acc_after_middle m c (before (before t)) (by omega) (by omega),
    acc_after_first m c (before (before (before t))) (by omega) (by omega)]

end Cert.ReferenceIdeal.Steps

end
-- ==== Proof.RefPayload.lean ====
/-
  The tiled program's arithmetic at one index, over the extended reals. One step adds to the accumulator
  the product of a [256, 512] tile of `x[e]` and a [512, 512] tile of `w[e]`: at entry (r, s) that is the
  sum over the tile's 512 contraction positions. Four steps from zero therefore leave

      (((0 + P₀) + P₁) + P₂) + P₃,   Pₖ = ∑ h < 512, x[e, R + r, 512·k + h] · w[e, 512·k + h, C + s],

  which is the full contraction over 2048 positions — one entry of the specified result.
-/
import proofs.«117274_g2000205832369335_pallasbulk_950_5_alg».proof.Proof.Gen.ReferenceIdeal.Skeleton
import proofs.«117274_g2000205832369335_pallasbulk_950_5_alg».proof.Proof.Spec
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.ReferenceIdeal.Tiled

open Cert.ReferenceIdeal Cert.ReferenceIdeal.Gen Cert.ExpertProduct

/-- Row `r`, contraction position `h` of the tile: where a step's left operand is read. -/
theorem lhs_at (r : Fin 256) (s h : Fin 512) :
    DotDims.lhsIdx dot_S256x512_S512x512_S256x512_1_0_0_1_n_n (ix2 r s)
      ((contrEquiv1 dot_S256x512_S512x512_S256x512_1_0_0_1_n_n 512 rfl rfl).symm h) = ix2 r h := by
  funext a
  apply Fin.ext
  match a with
  | ⟨0, _⟩ => rfl
  | ⟨1, _⟩ =>
    exact (DotDims.lhsIdx_val_of_single (d := dot_S256x512_S512x512_S256x512_1_0_0_1_n_n) (cl := (1 : Fin 2)) rfl (ix2 r s) _).trans
      (contrEquiv1_symm_val dot_S256x512_S512x512_S256x512_1_0_0_1_n_n 512 rfl rfl h)

/-- Contraction position `h`, column `s` of the tile: where the right operand is read. -/
theorem rhs_at (r : Fin 256) (s h : Fin 512) :
    DotDims.rhsIdx dot_S256x512_S512x512_S256x512_1_0_0_1_n_n (ix2 r s)
      ((contrEquiv1 dot_S256x512_S512x512_S256x512_1_0_0_1_n_n 512 rfl rfl).symm h) = ix2 h s := by
  funext a
  apply Fin.ext
  match a with
  | ⟨0, _⟩ =>
    exact (DotDims.rhsIdx_val_of_single (d := dot_S256x512_S512x512_S256x512_1_0_0_1_n_n) (cr := (0 : Fin 2)) rfl (ix2 r s) _).trans
      (contrEquiv1_symm_val dot_S256x512_S512x512_S256x512_1_0_0_1_n_n 512 rfl rfl h)
  | ⟨1, _⟩ => rfl

/-- A tile product into a zero accumulator, at entry (r, s): the sum over the tile's contraction axis. -/
theorem matmul_at (lhs : FVec Ideal S256x512 .f32) (rhs : FVec Ideal S512x512 .f32) (r : Fin 256) (s : Fin 512) :
    matmul dot_S256x512_S512x512_S256x512_1_0_0_1_n_n none lhs rhs (constant (F := Ideal) S256x512 .f32 0x00000000#32) (ix2 r s)
      = ∑ h : Fin 512, lhs (ix2 r h) * rhs (ix2 h s) := by
  simp only [matmul]
  rw [Ideal.matmul_constant_zero_apply]
  rw [← Equiv.sum_comp (contrEquiv1 dot_S256x512_S512x512_S256x512_1_0_0_1_n_n 512 rfl rfl).symm]
  refine Finset.sum_congr rfl fun h _ => ?_
  rw [lhs_at, rhs_at]

/-- Dropping the leading unit axis of an index (0, a, b) leaves (a, b). -/
theorem tail_ix3 {n1 n2 : Nat} (a : Fin n1) (b : Fin n2) :
    (fun d : Fin 2 => (ix3 (0 : Fin 1) a b) d.succ) = ix2 a b :=
  funext fun d => by match d with | ⟨0, _⟩ => rfl | ⟨1, _⟩ => rfl

/-- Putting a leading zero in front of (a, b) gives (0, a, b). -/
theorem cons_ix2 {n1 n2 : Nat} (a : Fin n1) (b : Fin n2) :
    (Fin.cons (⟨0, Nat.one_pos⟩ : Fin 1) (ix2 a b) : (⟨3, ![1, n1, n2]⟩ : Shape).Idx) = ix3 (0 : Fin 1) a b :=
  funext fun d => by match d with | ⟨0, _⟩ => rfl | ⟨1, _⟩ => rfl | ⟨2, _⟩ => rfl

/-- The block a run starts from is zero everywhere. -/
theorem zero_at (j : S256x512.Idx) : k0_pay1 (F := Ideal) j = 0 := by
  unfold k0_pay1
  rw [shapeCast_self]
  exact Ideal.ofBits_zero_f32

/-- One step at entry (r, s): what the accumulator held there plus the tile's contraction. -/
theorem step_at (acc : Vec Ideal S256x512 .f32) (x0 : Vec Ideal S1x256x512 .f32) (x1 : Vec Ideal S1x512x512 .f32)
    (r : Fin 256) (s : Fin 512) :
    k0_pay2 acc x0 x1 (ix2 r s) = acc (ix2 r s) + ∑ h : Fin 512, x0 (ix3 (0 : Fin 1) r h) * x1 (ix3 (0 : Fin 1) h s) := by
  unfold k0_pay2
  rw [shapeCast_self]
  refine congrArg (acc (ix2 r s) + ·) ?_
  refine (matmul_at _ _ r s).trans ?_
  refine Finset.sum_congr rfl fun h _ => ?_
  refine congrArg₂ (· * ·) ?_ ?_
  · exact (shapeCast_dropUnit_apply ![256, 512] x0 _ (ix2 r h)).trans (congrArg x0 (cons_ix2 r h))
  · exact (shapeCast_dropUnit_apply ![512, 512] x1 _ (ix2 h s)).trans (congrArg x1 (cons_ix2 h s))

/-- The copy into the output block only adds the leading unit axis. -/
theorem copy_at (v : Vec Ideal S256x512 .f32) (r : Fin 256) (s : Fin 512) :
    k0_pay3 v (ix3 (0 : Fin 1) r s) = v (ix2 r s) := by
  unfold k0_pay3
  exact (shapeCast_addUnit_apply ![256, 512] v _ (ix3 (0 : Fin 1) r s)).trans (congrArg v (tail_ix3 r s))

/-- A whole run of four steps, at entry (r, s) of the output block: the four tile contractions added in
    order to zero. -/
theorem run_at (x0 x1 x2 x3 : Vec Ideal S1x256x512 .f32) (w0 w1 w2 w3 : Vec Ideal S1x512x512 .f32)
    (r : Fin 256) (s : Fin 512) :
    k0_pay3 (k0_pay2 (k0_pay2 (k0_pay2 (k0_pay2 (k0_pay1 (F := Ideal)) x0 w0) x1 w1) x2 w2) x3 w3) (ix3 (0 : Fin 1) r s)
      = (((0 + ∑ h : Fin 512, x0 (ix3 (0 : Fin 1) r h) * w0 (ix3 (0 : Fin 1) h s))
          + ∑ h : Fin 512, x1 (ix3 (0 : Fin 1) r h) * w1 (ix3 (0 : Fin 1) h s))
          + ∑ h : Fin 512, x2 (ix3 (0 : Fin 1) r h) * w2 (ix3 (0 : Fin 1) h s))
          + ∑ h : Fin 512, x3 (ix3 (0 : Fin 1) r h) * w3 (ix3 (0 : Fin 1) h s) := by
  rw [copy_at, step_at, step_at, step_at, step_at, zero_at]

/-- When the run's four pairs of tiles are the consecutive contraction tiles of expert `e`'s row band
    starting at `R` and column band starting at `C`, the run leaves that band's entries of the specified
    result: the sum over 2048 positions is its four blocks of 512 added in order. -/
theorem run_is_product (x0 x1 x2 x3 : Vec Ideal S1x256x512 .f32) (w0 w1 w2 w3 : Vec Ideal S1x512x512 .f32)
    (X : XIdx → EReal) (W : WIdx → EReal) (e : Fin 8) (R C : Nat) (hR : R + 256 ≤ 512) (hC : C + 512 ≤ 2048)
    (hx0 : ∀ (r : Fin 256) (h : Fin 512), x0 (ix3 (0 : Fin 1) r h)
      = X (ix3 e ⟨R + r.val, by have := r.isLt; omega⟩ ⟨h.val, by have := h.isLt; omega⟩))
    (hx1 : ∀ (r : Fin 256) (h : Fin 512), x1 (ix3 (0 : Fin 1) r h)
      = X (ix3 e ⟨R + r.val, by have := r.isLt; omega⟩ ⟨512 + h.val, by have := h.isLt; omega⟩))
    (hx2 : ∀ (r : Fin 256) (h : Fin 512), x2 (ix3 (0 : Fin 1) r h)
      = X (ix3 e ⟨R + r.val, by have := r.isLt; omega⟩ ⟨1024 + h.val, by have := h.isLt; omega⟩))
    (hx3 : ∀ (r : Fin 256) (h : Fin 512), x3 (ix3 (0 : Fin 1) r h)
      = X (ix3 e ⟨R + r.val, by have := r.isLt; omega⟩ ⟨1536 + h.val, by have := h.isLt; omega⟩))
    (hw0 : ∀ (h s : Fin 512), w0 (ix3 (0 : Fin 1) h s)
      = W (ix3 e ⟨h.val, by have := h.isLt; omega⟩ ⟨C + s.val, by have := s.isLt; omega⟩))
    (hw1 : ∀ (h s : Fin 512), w1 (ix3 (0 : Fin 1) h s)
      = W (ix3 e ⟨512 + h.val, by have := h.isLt; omega⟩ ⟨C + s.val, by have := s.isLt; omega⟩))
    (hw2 : ∀ (h s : Fin 512), w2 (ix3 (0 : Fin 1) h s)
      = W (ix3 e ⟨1024 + h.val, by have := h.isLt; omega⟩ ⟨C + s.val, by have := s.isLt; omega⟩))
    (hw3 : ∀ (h s : Fin 512), w3 (ix3 (0 : Fin 1) h s)
      = W (ix3 e ⟨1536 + h.val, by have := h.isLt; omega⟩ ⟨C + s.val, by have := s.isLt; omega⟩))
    (r : Fin 256) (s : Fin 512) :
    k0_pay3 (k0_pay2 (k0_pay2 (k0_pay2 (k0_pay2 (k0_pay1 (F := Ideal)) x0 w0) x1 w1) x2 w2) x3 w3) (ix3 (0 : Fin 1) r s)
      = product X W (ix3 e ⟨R + r.val, by have := r.isLt; omega⟩ ⟨C + s.val, by have := s.isLt; omega⟩) := by
  rw [run_at, product_apply]
  unfold entry
  rw [sum_four_blocks]
  simp only [hx0, hx1, hx2, hx3, hw0, hw1, hw2, hw3]

end Cert.ReferenceIdeal.Tiled

end
-- ==== Proof.RefValue.lean ====
/-
  The tiled program's result array. Its grid is (expert, row band, column band, contraction tile) =
  (8, 2, 4, 4), the last axis fastest: point number t works on expert t / 32, row band (t / 16) mod 2,
  column band (t / 4) mod 4 and contraction tile t mod 4. The output block (expert, row band, column
  band) is written back only by the point that closes its run of four, and then holds the run's four
  tile products added to zero — the specified product on that block. The 64 written blocks tile the
  array, so the array ends holding the specified product of the argument arrays.
-/
import proofs.«117274_g2000205832369335_pallasbulk_950_5_alg».proof.Proof.Gen.ReferenceIdeal.Value
import proofs.«117274_g2000205832369335_pallasbulk_950_5_alg».proof.Proof.RefChain
import proofs.«117274_g2000205832369335_pallasbulk_950_5_alg».proof.Proof.RefPayload

noncomputable section

open Idealize.ShloMosaic Idealize.ShloMosaic.TcCoe Idealize.SL.Sem Idealize.ShloMosaic.ValueIdx
open Idealize.ShloMosaic.Pipeline (Dat)

namespace Cert.ReferenceIdeal.Tiled

open Cert.ReferenceIdeal Cert.ReferenceIdeal.Gen Cert.ExpertProduct
open Cert.ReferenceIdeal.Steps (before out_after_run)

variable (m : (ℓ : Loc nD τ sig) → Buf (Elt Ideal) ℓ) (ρ : Dev nD → PrngReg)

/-- Where each window's block sits at point `t`: `x`'s at (expert, row band, contraction tile), `w`'s at
    (expert, contraction tile, column band), the result's at (expert, row band, column band). -/
theorem block_index : ∀ t : Fin cfg0.N,
    win0_0.index t (0 : Fin 3) = t.val / 32 ∧ win0_0.index t (1 : Fin 3) = t.val / 16 % 2 ∧ win0_0.index t (2 : Fin 3) = t.val % 4
    ∧ win0_1.index t (0 : Fin 3) = t.val / 32 ∧ win0_1.index t (1 : Fin 3) = t.val % 4 ∧ win0_1.index t (2 : Fin 3) = t.val / 4 % 4
    ∧ win0_2.index t (0 : Fin 3) = t.val / 32 ∧ win0_2.index t (1 : Fin 3) = t.val / 16 % 2 ∧ win0_2.index t (2 : Fin 3) = t.val / 4 % 4 :=
  (by decide +kernel : ∀ t : Fin grid0.N, _)

/-- Entry (r, h) of `x`'s tile at point `t` is `x` at the expert, row and contraction position the point's
    number gives. -/
theorem x_block (c : Dev nD) (t : Fin cfg0.N) (r : Fin 256) (h : Fin 512) (e : Fin 8) (row : Fin 512) (col : Fin 2048)
    (he : e.val = t.val / 32) (hrow : row.val = 256 * (t.val / 16 % 2) + r.val) (hcol : col.val = 512 * (t.val % 4) + h.val) :
    (iblk m c 0 t : Vec Ideal S1x256x512 .f32) (ix3 (0 : Fin 1) r h) = V m c main_arg0 (ix3 e row col) := by
  obtain ⟨e0, e1, e2, -⟩ := block_index t
  show V m c main_arg0 (((cfg0.win 0).blk t).view.emb (ix3 (0 : Fin 1) r h)) = _
  refine congrArg (V m c main_arg0) ?_
  funext a
  apply Fin.ext
  match a with
  | ⟨0, _⟩ => show win0_0.index t (0 : Fin 3) * 1 + 1 * 0 = e.val; rw [e0]; omega
  | ⟨1, _⟩ => show win0_0.index t (1 : Fin 3) * 256 + 1 * r.val = row.val; rw [e1]; omega
  | ⟨2, _⟩ => show win0_0.index t (2 : Fin 3) * 512 + 1 * h.val = col.val; rw [e2]; omega

/-- Entry (h, s) of `w`'s tile at point `t`, likewise. -/
theorem w_block (c : Dev nD) (t : Fin cfg0.N) (h s : Fin 512) (e : Fin 8) (row col : Fin 2048)
    (he : e.val = t.val / 32) (hrow : row.val = 512 * (t.val % 4) + h.val) (hcol : col.val = 512 * (t.val / 4 % 4) + s.val) :
    (iblk m c 1 t : Vec Ideal S1x512x512 .f32) (ix3 (0 : Fin 1) h s) = V m c main_arg1 (ix3 e row col) := by
  obtain ⟨-, -, -, e0, e1, e2, -⟩ := block_index t
  show V m c main_arg1 (((cfg0.win 1).blk t).view.emb (ix3 (0 : Fin 1) h s)) = _
  refine congrArg (V m c main_arg1) ?_
  funext a
  apply Fin.ext
  match a with
  | ⟨0, _⟩ => show win0_1.index t (0 : Fin 3) * 1 + 1 * 0 = e.val; rw [e0]; omega
  | ⟨1, _⟩ => show win0_1.index t (1 : Fin 3) * 512 + 1 * h.val = row.val; rw [e1]; omega
  | ⟨2, _⟩ => show win0_1.index t (2 : Fin 3) * 512 + 1 * s.val = col.val; rw [e2]; omega

/-- A run's output block at any of its indices, once the run's tiles are the consecutive contraction
    tiles of one expert's row band and column band. -/
theorem block_is_product (x0 x1 x2 x3 : Vec Ideal S1x256x512 .f32) (w0 w1 w2 w3 : Vec Ideal S1x512x512 .f32)
    (X : XIdx → EReal) (W : WIdx → EReal) (e : Fin 8) (R C : Nat) (hR : R + 256 ≤ 512) (hC : C + 512 ≤ 2048)
    (hx0 : ∀ (r : Fin 256) (h : Fin 512), x0 (ix3 (0 : Fin 1) r h)
      = X (ix3 e ⟨R + r.val, by have := r.isLt; omega⟩ ⟨h.val, by have := h.isLt; omega⟩))
    (hx1 : ∀ (r : Fin 256) (h : Fin 512), x1 (ix3 (0 : Fin 1) r h)
      = X (ix3 e ⟨R + r.val, by have := r.isLt; omega⟩ ⟨512 + h.val, by have := h.isLt; omega⟩))
    (hx2 : ∀ (r : Fin 256) (h : Fin 512), x2 (ix3 (0 : Fin 1) r h)
      = X (ix3 e ⟨R + r.val, by have := r.isLt; omega⟩ ⟨1024 + h.val, by have := h.isLt; omega⟩))
    (hx3 : ∀ (r : Fin 256) (h : Fin 512), x3 (ix3 (0 : Fin 1) r h)
      = X (ix3 e ⟨R + r.val, by have := r.isLt; omega⟩ ⟨1536 + h.val, by have := h.isLt; omega⟩))
    (hw0 : ∀ (h s : Fin 512), w0 (ix3 (0 : Fin 1) h s)
      = W (ix3 e ⟨h.val, by have := h.isLt; omega⟩ ⟨C + s.val, by have := s.isLt; omega⟩))
    (hw1 : ∀ (h s : Fin 512), w1 (ix3 (0 : Fin 1) h s)
      = W (ix3 e ⟨512 + h.val, by have := h.isLt; omega⟩ ⟨C + s.val, by have := s.isLt; omega⟩))
    (hw2 : ∀ (h s : Fin 512), w2 (ix3 (0 : Fin 1) h s)
      = W (ix3 e ⟨1024 + h.val, by have := h.isLt; omega⟩ ⟨C + s.val, by have := s.isLt; omega⟩))
    (hw3 : ∀ (h s : Fin 512), w3 (ix3 (0 : Fin 1) h s)
      = W (ix3 e ⟨1536 + h.val, by have := h.isLt; omega⟩ ⟨C + s.val, by have := s.isLt; omega⟩))
    (j : S1x256x512.Idx) :
    k0_pay3 (k0_pay2 (k0_pay2 (k0_pay2 (k0_pay2 (k0_pay1 (F := Ideal)) x0 w0) x1 w1) x2 w2) x3 w3) j
      = product X W (ix3 e ⟨R + (j 1).val, by have : (j 1).val < 256 := (j 1).isLt; omega⟩
          ⟨C + (j 2).val, by have : (j 2).val < 512 := (j 2).isLt; omega⟩) := by
  obtain ⟨a, r, s, rfl⟩ : ∃ (a : Fin 1) (r : Fin 256) (s : Fin 512), j = ix3 a r s := ⟨j 0, j 1, j 2, eq_ix3 j⟩
  obtain rfl : a = 0 := Subsingleton.elim _ _
  exact run_is_product x0 x1 x2 x3 w0 w1 w2 w3 X W e R C hR hC hx0 hx1 hx2 hx3 hw0 hw1 hw2 hw3 r s

/-- What a point that closes a run writes back is its block of the specified product of the arrays as
    the region finds them. -/
theorem flushed_eq (c : Dev nD) (t : Fin cfg0.N) (hf : (cfg0.win 2).flush t = true) :
    (dats m 0 c).flushed 2 t
      = ((cfg0.win 2).blk t).view.read (Elt Ideal) (product (V m c main_arg0) (V m c main_arg1)) := by
  have h3 : t.val % 4 = 3 := (flush0_2 t).mp hf
  have hN : t.val < 256 := lt_of_lt_of_eq t.isLt (show cfg0.N = 256 from N_0)
  have b1 : (before t).val = t.val - 1 := rfl
  have b2 : (before (before t)).val = t.val - 1 - 1 := rfl
  have b3 : (before (before (before t))).val = t.val - 1 - 1 - 1 := rfl
  rw [Value.flushed2, out_after_run m c t h3]
  obtain ⟨-, -, -, -, -, -, e0, e1, e2⟩ := block_index t
  funext j
  show k0_pay3 (F := Ideal) _ j = product (V m c main_arg0) (V m c main_arg1) (((cfg0.win 2).blk t).view.emb j)
  refine (block_is_product _ _ _ _ _ _ _ _ (V m c main_arg0) (V m c main_arg1)
    ⟨t.val / 32, by omega⟩ (256 * (t.val / 16 % 2)) (512 * (t.val / 4 % 4)) (by omega) (by omega)
    (fun r h => x_block m c (before (before (before t))) r h _ _ _ (by first | rfl | (dsimp only; omega)) (by first | rfl | (dsimp only; omega)) (by first | rfl | (dsimp only; omega)))
    (fun r h => x_block m c (before (before t)) r h _ _ _ (by first | rfl | (dsimp only; omega)) (by first | rfl | (dsimp only; omega)) (by first | rfl | (dsimp only; omega)))
    (fun r h => x_block m c (before t) r h _ _ _ (by first | rfl | (dsimp only; omega)) (by first | rfl | (dsimp only; omega)) (by first | rfl | (dsimp only; omega)))
    (fun r h => x_block m c t r h _ _ _ (by first | rfl | (dsimp only; omega)) (by first | rfl | (dsimp only; omega)) (by first | rfl | (dsimp only; omega)))
    (fun h s => w_block m c (before (before (before t))) h s _ _ _ (by first | rfl | (dsimp only; omega)) (by first | rfl | (dsimp only; omega)) (by first | rfl | (dsimp only; omega)))
    (fun h s => w_block m c (before (before t)) h s _ _ _ (by first | rfl | (dsimp only; omega)) (by first | rfl | (dsimp only; omega)) (by first | rfl | (dsimp only; omega)))
    (fun h s => w_block m c (before t) h s _ _ _ (by first | rfl | (dsimp only; omega)) (by first | rfl | (dsimp only; omega)) (by first | rfl | (dsimp only; omega)))
    (fun h s => w_block m c t h s _ _ _ (by first | rfl | (dsimp only; omega)) (by first | rfl | (dsimp only; omega)) (by first | rfl | (dsimp only; omega)))
    j).trans ?_
  refine congrArg (product (V m c main_arg0) (V m c main_arg1)) ?_
  funext a
  apply Fin.ext
  have hj0 : (j 0).val < 1 := (j 0).isLt
  match a with
  | ⟨0, _⟩ => show t.val / 32 = win0_2.index t (0 : Fin 3) * 1 + 1 * (j 0).val; rw [e0]; omega
  | ⟨1, _⟩ => show 256 * (t.val / 16 % 2) + (j 1).val = win0_2.index t (1 : Fin 3) * 256 + 1 * (j 1).val; rw [e1]; omega
  | ⟨2, _⟩ => show 512 * (t.val / 4 % 4) + (j 2).val = win0_2.index t (2 : Fin 3) * 512 + 1 * (j 2).val; rw [e2]; omega

/-- An index of the result is in point `t`'s block iff each coordinate is in the block's range on its axis. -/
theorem mem_block (t : Fin cfg0.N) (i : S8x512x2048.Idx) :
    i ∈ ((cfg0.win 2).blk t).view.set ↔ ∀ a : Fin 3, win0_2.index t a * S1x256x512.size a ≤ (i a).val
      ∧ (i a).val < win0_2.index t a * S1x256x512.size a + S1x256x512.size a := by
  show i ∈ ((View.whole main_v0).slice (win0_2.rect t)).set ↔ _
  rw [View.set_slice_whole, Rect.mem_set_unit]
  exact Iff.rfl

/-- Every index (e, t, i) of the result lies in the block written back by the point that closes the run
    of expert e, row band t / 256 and column band i / 512. -/
theorem covered (i : S8x512x2048.Idx) :
    ∃ t : Fin cfg0.N, (cfg0.win 2).flush t = true ∧ i ∈ ((cfg0.win 2).blk t).view.set := by
  have hN : cfg0.N = 256 := N_0
  have h0 : (i 0).val < 8 := (i 0).isLt
  have h1 : (i 1).val < 512 := (i 1).isLt
  have h2 : (i 2).val < 2048 := (i 2).isLt
  have hb : (((i 0).val * 2 + (i 1).val / 256) * 4 + (i 2).val / 512) * 4 + 3 < cfg0.N := by omega
  refine ⟨⟨(((i 0).val * 2 + (i 1).val / 256) * 4 + (i 2).val / 512) * 4 + 3, hb⟩, (flush0_2 _).mpr (by first | rfl | (dsimp only; omega)), ?_⟩
  obtain ⟨-, -, -, -, -, -, e0, e1, e2⟩ := block_index ⟨(((i 0).val * 2 + (i 1).val / 256) * 4 + (i 2).val / 512) * 4 + 3, hb⟩
  rw [mem_block]
  intro a
  match a with
  | ⟨0, _⟩ =>
    show win0_2.index _ (0 : Fin 3) * 1 ≤ (i 0).val ∧ (i 0).val < win0_2.index _ (0 : Fin 3) * 1 + 1
    rw [e0]; dsimp only; omega
  | ⟨1, _⟩ =>
    show win0_2.index _ (1 : Fin 3) * 256 ≤ (i 1).val ∧ (i 1).val < win0_2.index _ (1 : Fin 3) * 256 + 256
    rw [e1]; dsimp only; omega
  | ⟨2, _⟩ =>
    show win0_2.index _ (2 : Fin 3) * 512 ≤ (i 2).val ∧ (i 2).val < win0_2.index _ (2 : Fin 3) * 512 + 512
    rw [e2]; dsimp only; omega

/-- The result array after the run: the specified product of the two argument arrays. -/
theorem final (c : Dev nD) :
    (dats m 0 c).arrAt 2 cfg0.N
      = product (m ((c : Thread nD τ).loc main_arg0)) (m ((c : Thread nD τ).loc main_arg1)) :=
  (dats m 0 c).arrAt_eq_of_cover 2 (product (V m c main_arg0) (V m c main_arg1)) (flushed_eq m c) covered

/-- Every weakly fair execution ends with the result array at the specified product, the arguments unchanged. -/
theorem run : θ_run defs (onTc (τ := τ) (main (F := Ideal))) ⟨m, fun _ => 0, ρ⟩ fun r => ∀ c : Dev nD,
      r.2.mem ((c : Thread nD τ).loc main_v0)
        = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.ReferenceIdeal.Tiled

end
-- ==== Proof.lean ====
/-
  The certificate of a per-expert batched matrix product, out[e] = x[e] · w[e] for eight experts, with
  x[e] of shape [512, 2048] and w[e] of shape [2048, 2048], in f32.

  The program under test multiplies each expert's whole matrices in one step, into a zero accumulator.
  The reference tiles the same product: for every [256, 512] output block it adds four products of a
  [256, 512] tile of x[e] with a [512, 512] tile of w[e] to an accumulator that starts at zero, and
  copies the accumulator out after the fourth. Over the extended reals, where every float operation is
  the exact one, both compute

      out[e, t, i] = ∑ h < 2048, x[e, t, h] · w[e, h, i],

  the reference as (((0 + P₀) + P₁) + P₂) + P₃ with Pₖ the sum over the k-th block of 512 contraction
  positions. Addition of extended reals is associative and commutative with zero as unit, so the two
  groupings of the sum agree for all inputs, finite or not; the precondition is never opened.

  The three frame claims are the generated frames. The idealization rewrote nothing, so the kernel's
  idealization is its own text read over the extended reals.
-/
import proofs.«117274_g2000205832369335_pallasbulk_950_5_alg».proof.Defs
import proofs.«117274_g2000205832369335_pallasbulk_950_5_alg».proof.Proof.Gen.Kernel
import proofs.«117274_g2000205832369335_pallasbulk_950_5_alg».proof.Proof.Gen.Kernel.Frame
import proofs.«117274_g2000205832369335_pallasbulk_950_5_alg».proof.Proof.Gen.KernelIdeal
import proofs.«117274_g2000205832369335_pallasbulk_950_5_alg».proof.Proof.Gen.KernelIdeal.Frame
import proofs.«117274_g2000205832369335_pallasbulk_950_5_alg».proof.Proof.Gen.KernelIdeal.Value
import proofs.«117274_g2000205832369335_pallasbulk_950_5_alg».proof.Proof.Gen.ReferenceIdeal
import proofs.«117274_g2000205832369335_pallasbulk_950_5_alg».proof.Proof.Gen.ReferenceIdeal.Frame
import proofs.«117274_g2000205832369335_pallasbulk_950_5_alg».proof.Proof.Gen.ReferenceIdeal.Value
import proofs.«117274_g2000205832369335_pallasbulk_950_5_alg».proof.Proof.Gen.Pre_finite_inputs
import proofs.«117274_g2000205832369335_pallasbulk_950_5_alg».proof.Proof.KernelValue
import proofs.«117274_g2000205832369335_pallasbulk_950_5_alg».proof.Proof.RefValue
import Idealize.ShloMosaic.Adequacy
import Idealize.ShloMosaic.Init

noncomputable section

namespace Cert.Proof

open Idealize.ShloMosaic Idealize.SL.Sem

/-- The program as printed runs to completion and leaves its arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- So does the tiled reference. -/
theorem frame_reference_ideal : Cert.frame_ReferenceIdeal := fun m ρ _ => Cert.ReferenceIdeal.Gen.frame m ρ

/-- Nothing was rewritten when the program was idealized. -/
theorem preserves : Cert.preserves_Kernel_KernelIdeal := trivial

/-- From memories that agree on `x` and `w`, both programs end with the result array at the same function
    of the arguments: every expert's full matrix product. -/
theorem algebraic : Cert.algebraic_KernelIdeal_ReferenceIdeal := by
  intro m ρ m' ρ' _ hagree
  refine ⟨fun c => Cert.ExpertProduct.product
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Tiled.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
